-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S1024x400 .f32
  ∧ IdealRules.sign_bit.Statement Cert.KernelIdeal.S1024x200 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S400x784 : Shape := ⟨2, ![400, 784]⟩
abbrev S200x400 : Shape := ⟨2, ![200, 400]⟩
abbrev S10x200 : Shape := ⟨2, ![10, 200]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S400x784 : S_.BroadcastsInDim S400x784 (![] : Fin 0 → Fin S400x784.rank)
  reducesTo_S400x784_S_d0_1 : S400x784.ReducesTo [0, 1] S_
  bcast_S_S200x400 : S_.BroadcastsInDim S200x400 (![] : Fin 0 → Fin S200x400.rank)
  reducesTo_S200x400_S_d0_1 : S200x400.ReducesTo [0, 1] S_
  bcast_S_S10x200 : S_.BroadcastsInDim S10x200 (![] : Fin 0 → Fin S10x200.rank)
  reducesTo_S10x200_S_d0_1 : S10x200.ReducesTo [0, 1] S_

variable [Facts]

def fn_part1 {F : FTy → Type} [FloatOps F] (main_v13 : IVec S_ 1) (main_v16 : IVec S10x200 1) : IVec S_ 1 :=
  let main_c_5 : IVec S_ 1 := constantI S_ 1 1#1
  let main_v17 : IVec S_ 1 := (fun x v => Host.reduce IntOp.andi x v reducesTo_S10x200_S_d0_1 h_S_) main_v16 main_c_5
  let main_v18 : IVec S_ 1 := andi main_v13 main_v17
  main_v18

def fn {F : FTy → Type} [FloatOps F] (main_arg0 : FVec F S65536x784 .f32) (main_arg1 : FVec F S400x784 .f32) (main_arg2 : FVec F S200x400 .f32) (main_arg3 : FVec F S10x200 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S400x784 .f32 := Host.absf main_arg1
  let main_cst_0 : FVec F S_ .f32 := constant S_ .f32 0x7F800000#32
  let main_v5 : FVec F S400x784 .f32 := broadcastInDim S400x784 ![] bcast_S_S400x784 main_cst_0
  let main_v6 : IVec S400x784 1 := cmpf .olt main_v4 main_v5
  let main_c_1 : IVec S_ 1 := constantI S_ 1 1#1
  let main_v7 : IVec S_ 1 := (fun x v => Host.reduce IntOp.andi x v reducesTo_S400x784_S_d0_1 h_S_) main_v6 main_c_1
  let main_v8 : IVec S_ 1 := andi main_v3 main_v7
  let main_v9 : FVec F S200x400 .f32 := Host.absf main_arg2
  let main_cst_2 : FVec F S_ .f32 := constant S_ .f32 0x7F800000#32
  let main_v10 : FVec F S200x400 .f32 := broadcastInDim S200x400 ![] bcast_S_S200x400 main_cst_2
  let main_v11 : IVec S200x400 1 := cmpf .olt main_v9 main_v10
  let main_c_3 : IVec S_ 1 := constantI S_ 1 1#1
  let main_v12 : IVec S_ 1 := (fun x v => Host.reduce IntOp.andi x v reducesTo_S200x400_S_d0_1 h_S_) main_v11 main_c_3
  let main_v13 : IVec S_ 1 := andi main_v8 main_v12
  let main_v14 : FVec F S10x200 .f32 := Host.absf main_arg3
  let main_cst_4 : FVec F S_ .f32 := constant S_ .f32 0x7F800000#32
  let main_v15 : FVec F S10x200 .f32 := broadcastInDim S10x200 ![] bcast_S_S10x200 main_cst_4
  let main_v16 : IVec S10x200 1 := cmpf .olt main_v14 main_v15
  fn_part1 (F := F) main_v13 main_v16
-- ==== Kernel.lean ====
abbrev S65536x784 : Shape := ⟨2, ![65536, 784]⟩
abbrev S400x784 : Shape := ⟨2, ![400, 784]⟩
abbrev S200x400 : Shape := ⟨2, ![200, 400]⟩
abbrev S10x200 : Shape := ⟨2, ![10, 200]⟩
abbrev S784x400 : Shape := ⟨2, ![784, 400]⟩
abbrev S400x200 : Shape := ⟨2, ![400, 200]⟩
abbrev S200x10 : Shape := ⟨2, ![200, 10]⟩
abbrev S65536x10 : Shape := ⟨2, ![65536, 10]⟩
abbrev S1024x784 : Shape := ⟨2, ![1024, 784]⟩
abbrev S1024x10 : Shape := ⟨2, ![1024, 10]⟩
abbrev S1024x400 : Shape := ⟨2, ![1024, 400]⟩
abbrev S1024x200 : Shape := ⟨2, ![1024, 200]⟩

abbrev nBuf : Space → Nat
  | .hbm => 13
  | .vmem => 7
  | .smem => 0
  | _ => 0

abbrev bufTy : (tb : Table) → Fin (tcTables nBuf tb) → BufTy
  | .hbm, ⟨0, _⟩ => ⟨S65536x784, .f32⟩
  | .hbm, ⟨1, _⟩ => ⟨S400x784, .f32⟩
  | .hbm, ⟨2, _⟩ => ⟨S200x400, .f32⟩
  | .hbm, ⟨3, _⟩ => ⟨S10x200, .f32⟩
  | .hbm, ⟨4, _⟩ => ⟨S400x784, .f32⟩
  | .hbm, ⟨5, _⟩ => ⟨S784x400, .f32⟩
  | .hbm, ⟨6, _⟩ => ⟨S200x400, .f32⟩
  | .hbm, ⟨7, _⟩ => ⟨S200x400, .bf16⟩
  | .hbm, ⟨8, _⟩ => ⟨S400x200, .bf16⟩
  | .hbm, ⟨9, _⟩ => ⟨S10x200, .f32⟩
  | .hbm, ⟨10, _⟩ => ⟨S10x200, .bf16⟩
  | .hbm, ⟨11, _⟩ => ⟨S200x10, .bf16⟩
  | .hbm, ⟨12, _⟩ => ⟨S65536x10, .f32⟩
  | .local _ .vmem, ⟨0, _⟩ => ⟨S1024x784, .f32⟩
  | .local _ .vmem, ⟨1, _⟩ => ⟨S1024x784, .f32⟩
  | .local _ .vmem, ⟨2, _⟩ => ⟨S784x400, .f32⟩
  | .local _ .vmem, ⟨3, _⟩ => ⟨S400x200, .bf16⟩
  | .local _ .vmem, ⟨4, _⟩ => ⟨S200x10, .bf16⟩
  | .local _ .vmem, ⟨5, _⟩ => ⟨S1024x10, .f32⟩
  | .local _ .vmem, ⟨6, _⟩ => ⟨S1024x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400x200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200x10 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S400x784_S784x400_1_0 : S400x784.Transposes [1, 0] S784x400
  bitsLt_bf16_f32 : FTy.bits .bf16 < FTy.bits .f32
  transposes_S200x400_S400x200_1_0 : S200x400.Transposes [1, 0] S400x200
  transposes_S10x200_S200x10_1_0 : S10x200.Transposes [1, 0] S200x10
  inb_S1024x784_S1024x784_0_0 : ∀ a, (![0, 0] : Fin 2 → Nat) a + S1024x784.size a ≤ S1024x784.size a
  h_S1024x784 : 0 < S1024x784.numel
  inb_S784x400_S784x400_0_0 : ∀ a, (![0, 0] : Fin 2 → Nat) a + S784x400.size a ≤ S784x400.size a
  h_S784x400 : 0 < S784x400.numel
  shapeCasts_S784x400_S784x400 : S784x400.ShapeCasts S784x400
  inb_S400x200_S400x200_0_0 : ∀ a, (![0, 0] : Fin 2 → Nat) a + S400x200.size a ≤ S400x200.size a
  h_S400x200 : 0 < S400x200.numel
  shapeCasts_S400x200_S400x200 : S400x200.ShapeCasts S400x200
  inb_S200x10_S200x10_0_0 : ∀ a, (![0, 0] : Fin 2 → Nat) a + S200x10.size a ≤ S200x10.size a
  h_S200x10 : 0 < S200x10.numel
  shapeCasts_S200x10_S200x10 : S200x10.ShapeCasts S200x10
  inb_S1024x10_S1024x10_0_0 : ∀ a, (![0, 0] : Fin 2 → Nat) a + S1024x10.size a ≤ S1024x10.size a
  h_S1024x10 : 0 < S1024x10.numel
  dot_S1024x784_S784x400_S1024x400_1_0_0_1_n_n_wf : DotDims.WF S1024x784 S784x400 S1024x400 [1] [0] [0] [1] [] []
  dot_S1024x400_S400x200_S1024x200_1_0_0_1_n_n_wf : DotDims.WF S1024x400 S400x200 S1024x200 [1] [0] [0] [1] [] []
  dot_S1024x200_S200x10_S1024x10_1_0_0_1_n_n_wf : DotDims.WF S1024x200 S200x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x400.size a ≤ S784x400.size a
  hwx0_1 : ∀ i : grid0.Coords, EltTy.bits .f32 = 32 ∨ (Rect.block (s := S784x400) S784x400.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400x200.size a ≤ S400x200.size a
  hwx0_2 : ∀ i : grid0.Coords, EltTy.bits .bf16 = 32 ∨ (Rect.block (s := S400x200) S400x200.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x10.size a ≤ S200x10.size a
  hwx0_3 : ∀ i : grid0.Coords, EltTy.bits .bf16 = 32 ∨ (Rect.block (s := S200x10) S200x10.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x10.size a ≤ S65536x10.size a
  hwx0_4 : ∀ i : grid0.Coords, EltTy.bits .f32 = 32 ∨ (Rect.block (s := S65536x10) S1024x10.size (cc0_transform_4 i) (hinb0_4 i)).WholeWords (EltTy.packing .f32)

variable [Facts₀]

def dot_S1024x784_S784x400_S1024x400_1_0_0_1_n_n : DotDims S1024x784 S784x400 S1024x400 where
  lhsContracting := [1]
  rhsContracting := [0]
  lhsNonContracting := [0]
  rhsNonContracting := [1]
  lhsBatch := []
  rhsBatch := []
  wf := dot_S1024x784_S784x400_S1024x400_1_0_0_1_n_n_wf
def dot_S1024x400_S400x200_S1024x200_1_0_0_1_n_n : DotDims S1024x400 S400x200 S1024x200 where
  lhsContracting := [1]
  rhsContracting := [0]
  lhsNonContracting := [0]
  rhsNonContracting := [1]
  lhsBatch := []
  rhsBatch := []
  wf := dot_S1024x400_S400x200_S1024x200_1_0_0_1_n_n_wf
def dot_S1024x200_S200x10_S1024x10_1_0_0_1_n_n : DotDims S1024x200 S200x10 S1024x10 where
  lhsContracting := [1]
  rhsContracting := [0]
  lhsNonContracting := [0]
  rhsNonContracting := [1]
  lhsBatch := []
  rhsBatch := []
  wf := dot_S1024x200_S200x10_S1024x10_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S784x400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S400x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S200x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x784 : Shape := ⟨2, ![65536, 784]⟩
abbrev S400x784 : Shape := ⟨2, ![400, 784]⟩
abbrev S200x400 : Shape := ⟨2, ![200, 400]⟩
abbrev S10x200 : Shape := ⟨2, ![10, 200]⟩
abbrev S65536x400 : Shape := ⟨2, ![65536, 400]⟩
abbrev S_ : Shape := ⟨0, ![]⟩
abbrev S65536x200 : Shape := ⟨2, ![65536, 200]⟩
abbrev S65536x10 : Shape := ⟨2, ![65536, 10]⟩

abbrev nBuf : Space → Nat
  | .hbm => 38
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S400x784, .f32⟩
  | .hbm, ⟨2, _⟩ => ⟨S200x400, .f32⟩
  | .hbm, ⟨3, _⟩ => ⟨S10x200, .f32⟩
  | .hbm, ⟨4, _⟩ => ⟨S400x784, .f32⟩
  | .hbm, ⟨5, _⟩ => ⟨S400x784, .f32⟩
  | .hbm, ⟨6, _⟩ => ⟨S400x784, .f32⟩
  | .hbm, ⟨7, _⟩ => ⟨S65536x400, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S65536x400, .f32⟩
  | .hbm, ⟨12, _⟩ => ⟨S65536x400, .f32⟩
  | .hbm, ⟨13, _⟩ => ⟨S_, .f32⟩
  | .hbm, ⟨14, _⟩ => ⟨S65536x400, .f32⟩
  | .hbm, ⟨15, _⟩ => ⟨S65536x400, .f32⟩
  | .hbm, ⟨16, _⟩ => ⟨S65536x400, .f32⟩
  | .hbm, ⟨17, _⟩ => ⟨S65536x400, .f32⟩
  | .hbm, ⟨18, _⟩ => ⟨S65536x400, .f32⟩
  | .hbm, ⟨19, _⟩ => ⟨S200x400, .f32⟩
  | .hbm, ⟨20, _⟩ => ⟨S200x400, .f32⟩
  | .hbm, ⟨21, _⟩ => ⟨S200x400, .f32⟩
  | .hbm, ⟨22, _⟩ => ⟨S65536x200, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S65536x200, .f32⟩
  | .hbm, ⟨27, _⟩ => ⟨S65536x200, .f32⟩
  | .hbm, ⟨28, _⟩ => ⟨S_, .f32⟩
  | .hbm, ⟨29, _⟩ => ⟨S65536x200, .f32⟩
  | .hbm, ⟨30, _⟩ => ⟨S65536x200, .f32⟩
  | .hbm, ⟨31, _⟩ => ⟨S65536x200, .f32⟩
  | .hbm, ⟨32, _⟩ => ⟨S65536x200, .f32⟩
  | .hbm, ⟨33, _⟩ => ⟨S65536x200, .f32⟩
  | .hbm, ⟨34, _⟩ => ⟨S10x200, .f32⟩
  | .hbm, ⟨35, _⟩ => ⟨S10x200, .f32⟩
  | .hbm, ⟨36, _⟩ => ⟨S10x200, .f32⟩
  | .hbm, ⟨37, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]

class Facts₀ : Prop where
  bcast_S_S65536x400 : S_.BroadcastsInDim S65536x400 (![] : Fin 0 → Fin S65536x400.rank)
  bcast_S_S65536x200 : S_.BroadcastsInDim S65536x200 (![] : Fin 0 → Fin S65536x200.rank)
  dot_S65536x784_S400x784_S65536x400_1_1_0_0_n_n_wf : DotDims.WF S65536x784 S400x784 S65536x400 [1] [1] [0] [0] [] []
  dot_S65536x400_S200x400_S65536x200_1_1_0_0_n_n_wf : DotDims.WF S65536x400 S200x400 S65536x200 [1] [1] [0] [0] [] []
  dot_S65536x200_S10x200_S65536x10_1_1_0_0_n_n_wf : DotDims.WF S65536x200 S10x200 S65536x10 [1] [1] [0] [0] [] []

variable [Facts₀]

def dot_S65536x784_S400x784_S65536x400_1_1_0_0_n_n : DotDims S65536x784 S400x784 S65536x400 where
  lhsContracting := [1]
  rhsContracting := [1]
  lhsNonContracting := [0]
  rhsNonContracting := [0]
  lhsBatch := []
  rhsBatch := []
  wf := dot_S65536x784_S400x784_S65536x400_1_1_0_0_n_n_wf
def dot_S65536x400_S200x400_S65536x200_1_1_0_0_n_n : DotDims S65536x400 S200x400 S65536x200 where
  lhsContracting := [1]
  rhsContracting := [1]
  lhsNonContracting := [0]
  rhsNonContracting := [0]
  lhsBatch := []
  rhsBatch := []
  wf := dot_S65536x400_S200x400_S65536x200_1_1_0_0_n_n_wf
def dot_S65536x200_S10x200_S65536x10_1_1_0_0_n_n : DotDims S65536x200 S10x200 S65536x10 where
  lhsContracting := [1]
  rhsContracting := [1]
  lhsNonContracting := [0]
  rhsNonContracting := [0]
  lhsBatch := []
  rhsBatch := []
  wf := dot_S65536x200_S10x200_S65536x10_1_1_0_0_n_n_wf

class Facts : Prop extends Facts₀ where

variable [Facts]
-- ==== Proof.LibSignLaws.lean ====
/-
  General laws about the sign function on the extended reals, for networks with binarized weights and activations.

  sign is -1 below zero, 0 at zero, 1 above zero; the infinities have signs -1 and 1. Collected here:

  * the 32-bit float words of 1.0, -1.0 and +infinity as extended reals;
  * the "straight-through" spelling t + (sign t - t) equals sign t when t is a real number (at an infinity the
    difference is not defined, so finiteness is needed);
  * clipping to [-1, 1] keeps the sign and always gives a real number, so the straight-through spelling applied to
    min 1 (max (-1) h) is sign h at EVERY extended real h;
  * a kernel's spelling of the sign of a vector — "1.0 carrying the entry's sign where the absolute value is above
    zero, else the entry itself" — is the sign function entry by entry;
  * an extended real whose absolute value compares below the word of +infinity is a real number.
-/
import Idealize.ShloMosaic.PureOps.Ideal
import Idealize.ShloMosaic.PureOps.Ideal.Laws
import Idealize.ShloMosaic.PureOps.IdealRules

noncomputable section

namespace Cert.SignLaws

open Idealize.ShloMosaic

/-! ## Three float words -/

/-- The 32-bit float word of 1.0 denotes the extended real 1. -/
theorem word_one : Ideal.ofBits .f32 0x3F800000#32 = 1 := IdealRules.sign_bit.ideal_onePat .f32

/-- The 32-bit float word of -1.0 denotes the extended real -1. -/
theorem word_neg_one : Ideal.ofBits .f32 0xBF800000#32 = -1 := IdealRules.sign_bit.ideal_negOnePat .f32

/-- The 32-bit float word of +infinity denotes the top of the extended reals. -/
theorem word_inf : Ideal.ofBits .f32 0x7F800000#32 = ⊤ := by simp [Ideal.ofBits, Ideal.ieee]

/-! ## The straight-through sign -/

/-- The straight-through sign of a real number is its sign: r + (s - r) = s in the reals. -/
theorem ste_coe (r : ℝ) : (r : EReal) + (Ideal.sign (r : EReal) - (r : EReal)) = Ideal.sign (r : EReal) := by
  rw [Ideal.sign_coe, ← EReal.coe_sub, ← EReal.coe_add]
  congr 1
  ring

/-- The same for an extended real known to be finite. -/
theorem ste_of_finite (w : EReal) (htop : w ≠ ⊤) (hbot : w ≠ ⊥) : w + (Ideal.sign w - w) = Ideal.sign w := by
  obtain ⟨r, hr⟩ : ∃ r : ℝ, w = (r : EReal) := ⟨_, (EReal.coe_toReal htop hbot).symm⟩
  rw [hr, ste_coe]

/-! ## Clipping to [-1, 1] -/

theorem neg_one_lt_zero : (-1 : EReal) < 0 := by
  rw [← EReal.coe_one, ← EReal.coe_neg, ← EReal.coe_zero]
  exact EReal.coe_lt_coe_iff.mpr (by norm_num)

theorem zero_lt_one' : (0 : EReal) < 1 := by
  rw [← EReal.coe_one, ← EReal.coe_zero]
  exact EReal.coe_lt_coe_iff.mpr (by norm_num)

/-- Clipping to [-1, 1] keeps the sign: below zero the clipped value is below zero, above zero above, and zero stays. -/
theorem sign_clip (h : EReal) : Ideal.sign (min 1 (max (-1) h)) = Ideal.sign h := by
  rcases lt_trichotomy h 0 with hlt | heq | hgt
  · have hc : min 1 (max (-1) h) < 0 := lt_of_le_of_lt (min_le_right _ _) (max_lt neg_one_lt_zero hlt)
    rw [Ideal.sign_of_neg hc, Ideal.sign_of_neg hlt]
  · subst heq
    have hc : min (1 : EReal) (max (-1) 0) = 0 := by
      rw [max_eq_right neg_one_lt_zero.le, min_eq_right zero_lt_one'.le]
    rw [hc]
  · have hc : 0 < min 1 (max (-1) h) := lt_min zero_lt_one' (lt_of_lt_of_le hgt (le_max_right _ _))
    rw [Ideal.sign_of_pos hc, Ideal.sign_of_pos hgt]

/-- The clipped value is a real number: it lies between -1 and 1. -/
theorem clip_finite (h : EReal) : min 1 (max (-1) h) ≠ ⊤ ∧ min 1 (max (-1) h) ≠ ⊥ := by
  have lo : (-1 : EReal) ≤ min 1 (max (-1) h) := le_min (neg_one_lt_zero.le.trans zero_lt_one'.le) (le_max_left _ _)
  have hi : min 1 (max (-1) h) ≤ 1 := min_le_left _ _
  have hb : (⊥ : EReal) < min 1 (max (-1) h) :=
    lt_of_lt_of_le (by rw [← EReal.coe_one, ← EReal.coe_neg]; exact EReal.bot_lt_coe _) lo
  have ht : min 1 (max (-1) h) < ⊤ :=
    lt_of_le_of_lt hi (by rw [← EReal.coe_one]; exact EReal.coe_lt_top _)
  exact ⟨ht.ne, hb.ne'⟩

/-- The straight-through sign of the clipped value is the sign of the value itself, at every extended real. -/
theorem ste_clip (h : EReal) :
    min 1 (max (-1) h) + (Ideal.sign (min 1 (max (-1) h)) - min 1 (max (-1) h)) = Ideal.sign h := by
  rw [ste_of_finite _ (clip_finite h).1 (clip_finite h).2, sign_clip]

/-! ## A kernel's spelling of the sign -/

/-- A kernel's spelling of the sign of a vector: where the absolute value is above zero, 1.0 with the entry's sign
    (-1.0 below zero, 1.0 otherwise); elsewhere the entry itself. -/
def sgnTerm {s : Shape} (v : FVec Ideal s .f32) : FVec Ideal s .f32 :=
  select (cmpf .ogt (absf v) (broadcast s (Scalar.ofBits .f32 0x00000000#32)))
    (select (cmpf .olt v (constant s .f32 0x00000000#32)) (constant s .f32 0xBF800000#32) (constant s .f32 0x3F800000#32)) v

/-- It is the sign function, entry by entry. -/
theorem sgnTerm_apply {s : Shape} (v : FVec Ideal s .f32) (i : s.Idx) : sgnTerm v i = Ideal.sign (v i) :=
  Ideal.jnp_sign_eq_sign_f32 (v i)

/-! ## Finiteness from a comparison with +infinity -/

/-- An extended real whose absolute value compares below +infinity is a real number. -/
theorem finite_of_abs_lt (x : EReal) (h : Ideal.cmp .olt (max x (-x)) (Ideal.ofBits .f32 0x7F800000#32) = 1#1) :
    x ≠ ⊤ ∧ x ≠ ⊥ := by
  rw [word_inf] at h
  constructor
  · rintro rfl; simp [Ideal.cmp] at h
  · rintro rfl; simp [Ideal.cmp] at h

end Cert.SignLaws

end
-- ==== Proof.SignNet.lean ====
/-
  A three-layer dense network whose two hidden activations pass through the sign function, one row at a time, and
  as a whole array.

  For a row r of 784 inputs and weight matrices A (784 x 400), B (400 x 200), C (200 x 10), the output at column q is

      sum_j sign( sum_k sign( sum_l r l * A l k ) * B k j ) * C j q

  over the extended reals, where sign is -1 below zero, 0 at zero and 1 above zero (the infinities have signs -1 and 1).
  The whole output array (65536 x 10) applies this to every row of the input array, either with matrices given ready
  for use or with the transposed signs of weight arrays stored (output unit, input unit).
-/
import Idealize.ShloMosaic.PureOps.Ideal
import Idealize.ShloMosaic.PureOps.Ideal.Laws
import Idealize.ShloMosaic.Lib.ValueIdx

noncomputable section

namespace Cert.SignNet

open Idealize.ShloMosaic

/-- One output entry of the network for one input row: three matrix products with the sign applied between them. -/
def rowNet (r : Fin 784 → EReal) (A : Fin 784 → Fin 400 → EReal) (B : Fin 400 → Fin 200 → EReal)
    (C : Fin 200 → Fin 10 → EReal) (q : Fin 10) : EReal :=
  ∑ j : Fin 200, Ideal.sign (∑ k : Fin 400, Ideal.sign (∑ l : Fin 784, r l * A l k) * B k j) * C j q

/-! ## The whole output array -/

open Idealize.ShloMosaic.ValueIdx in
/-- The output array (65536 x 10) of the network whose three weight matrices are given ready for use: A, B, C indexed
    (input unit, output unit). Entry (b, o) is the row network of row b of the input array. -/
def netArrOf (X : (⟨2, ![65536, 784]⟩ : Shape).Idx → EReal) (A : (⟨2, ![784, 400]⟩ : Shape).Idx → EReal)
    (B : (⟨2, ![400, 200]⟩ : Shape).Idx → EReal) (C : (⟨2, ![200, 10]⟩ : Shape).Idx → EReal) :
    (⟨2, ![65536, 10]⟩ : Shape).Idx → EReal := fun i =>
  rowNet (fun l => X (ix2 (⟨(i 0).val, (i 0).isLt⟩ : Fin 65536) l)) (fun l k => A (ix2 l k)) (fun k j => B (ix2 k j))
    (fun j o => C (ix2 j o)) (⟨(i 1).val, (i 1).isLt⟩ : Fin 10)

open Idealize.ShloMosaic.ValueIdx in
/-- The output array of the network from the weight arrays as they are stored — W1, W3, W4 indexed (output unit,
    input unit) — each weight replaced by its sign. -/
def netArr (X : (⟨2, ![65536, 784]⟩ : Shape).Idx → EReal) (W1 : (⟨2, ![400, 784]⟩ : Shape).Idx → EReal)
    (W3 : (⟨2, ![200, 400]⟩ : Shape).Idx → EReal) (W4 : (⟨2, ![10, 200]⟩ : Shape).Idx → EReal) :
    (⟨2, ![65536, 10]⟩ : Shape).Idx → EReal := fun i =>
  rowNet (fun l => X (ix2 (⟨(i 0).val, (i 0).isLt⟩ : Fin 65536) l)) (fun l k => Ideal.sign (W1 (ix2 k l)))
    (fun k j => Ideal.sign (W3 (ix2 j k))) (fun j o => Ideal.sign (W4 (ix2 o j))) (⟨(i 1).val, (i 1).isLt⟩ : Fin 10)

open Idealize.ShloMosaic.ValueIdx in
theorem netArrOf_apply (X : (⟨2, ![65536, 784]⟩ : Shape).Idx → EReal) (A : (⟨2, ![784, 400]⟩ : Shape).Idx → EReal)
    (B : (⟨2, ![400, 200]⟩ : Shape).Idx → EReal) (C : (⟨2, ![200, 10]⟩ : Shape).Idx → EReal) (b : Fin 65536) (o : Fin 10) :
    netArrOf X A B C (ix2 b o)
      = rowNet (fun l => X (ix2 b l)) (fun l k => A (ix2 l k)) (fun k j => B (ix2 k j)) (fun j o => C (ix2 j o)) o := rfl

open Idealize.ShloMosaic.ValueIdx in
theorem netArr_apply (X : (⟨2, ![65536, 784]⟩ : Shape).Idx → EReal) (W1 : (⟨2, ![400, 784]⟩ : Shape).Idx → EReal)
    (W3 : (⟨2, ![200, 400]⟩ : Shape).Idx → EReal) (W4 : (⟨2, ![10, 200]⟩ : Shape).Idx → EReal) (b : Fin 65536) (o : Fin 10) :
    netArr X W1 W3 W4 (ix2 b o)
      = rowNet (fun l => X (ix2 b l)) (fun l k => Ideal.sign (W1 (ix2 k l))) (fun k j => Ideal.sign (W3 (ix2 j k)))
          (fun j o => Ideal.sign (W4 (ix2 o j))) o := rfl

open Idealize.ShloMosaic.ValueIdx in
/-- With the ready-made matrices the transposed signs of the stored weights, the two forms are one array. -/
theorem netArrOf_eq_netArr (X : (⟨2, ![65536, 784]⟩ : Shape).Idx → EReal) (A : (⟨2, ![784, 400]⟩ : Shape).Idx → EReal)
    (B : (⟨2, ![400, 200]⟩ : Shape).Idx → EReal) (C : (⟨2, ![200, 10]⟩ : Shape).Idx → EReal)
    (W1 : (⟨2, ![400, 784]⟩ : Shape).Idx → EReal) (W3 : (⟨2, ![200, 400]⟩ : Shape).Idx → EReal) (W4 : (⟨2, ![10, 200]⟩ : Shape).Idx → EReal)
    (hA : ∀ (l : Fin 784) (k : Fin 400), A (ix2 l k) = Ideal.sign (W1 (ix2 k l)))
    (hB : ∀ (k : Fin 400) (j : Fin 200), B (ix2 k j) = Ideal.sign (W3 (ix2 j k)))
    (hC : ∀ (j : Fin 200) (o : Fin 10), C (ix2 j o) = Ideal.sign (W4 (ix2 o j))) :
    netArrOf X A B C = netArr X W1 W3 W4 := by
  funext i
  unfold netArrOf netArr
  congr 1
  · funext l k; exact hA l k
  · funext k j; exact hB k j
  · funext j o; exact hC j o

end Cert.SignNet

end
-- ==== Proof.KernelRow.lean ====
/-
  What the kernel's body computes for one block of 1024 input rows, read at one output entry.

  The body multiplies the block of inputs (1024 x 784) by the first weight matrix (784 x 400), takes the sign of every
  entry, multiplies by the second weight matrix (400 x 200), takes the sign again, and multiplies by the third
  (200 x 10). Each product accumulates into a zero matrix, so at the extended reals its entry (p, k) is the plain sum
  over the contracted index l of x (p, l) * y (l, k). The sign is spelt "1.0 carrying the entry's sign where the entry's
  absolute value is above zero, else the entry itself", which is the sign function at every extended real. Changing
  the float format between the layers does nothing to an extended real. So the body's result at (p, q) is the
  three-layer sign network of row p of the block.
-/
import proofs.«166958_j71322226917399_2_alg».proof.Proof.Gen.KernelIdeal.Skeleton
import proofs.«166958_j71322226917399_2_alg».proof.Proof.SignNet
import proofs.«166958_j71322226917399_2_alg».proof.Proof.LibSignLaws
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.SignNet Cert.SignLaws

/-! ## Each matrix product at an entry -/

theorem mm1_lhs0 (j : S1024x400.Idx) (u : dot_S1024x784_S784x400_S1024x400_1_0_0_1_n_n.contr.Idx) : (dot_S1024x784_S784x400_S1024x400_1_0_0_1_n_n.lhsIdx j u 0).val = (j 0).val := by
  unfold DotDims.lhsIdx
  rw [dif_neg (show ¬(0 : Fin S1024x784.rank) ∈ dot_S1024x784_S784x400_S1024x400_1_0_0_1_n_n.lhsBatch by decide), dif_pos (show (0 : Fin S1024x784.rank) ∈ dot_S1024x784_S784x400_S1024x400_1_0_0_1_n_n.lhsNonContracting by decide)]
  rfl

theorem mm1_rhs1 (j : S1024x400.Idx) (u : dot_S1024x784_S784x400_S1024x400_1_0_0_1_n_n.contr.Idx) : (dot_S1024x784_S784x400_S1024x400_1_0_0_1_n_n.rhsIdx j u 1).val = (j 1).val := by
  unfold DotDims.rhsIdx
  rw [dif_neg (show ¬(1 : Fin S784x400.rank) ∈ dot_S1024x784_S784x400_S1024x400_1_0_0_1_n_n.rhsBatch by decide), dif_pos (show (1 : Fin S784x400.rank) ∈ dot_S1024x784_S784x400_S1024x400_1_0_0_1_n_n.rhsNonContracting by decide)]
  rfl

/-- The first product at entry (p, k): the sum over the 784 input features of input times weight. -/
theorem mm1_apply (x : FVec Ideal S1024x784 .f32) (y : FVec Ideal S784x400 .f32) (p : Fin 1024) (k : Fin 400) :
    matmul dot_S1024x784_S784x400_S1024x400_1_0_0_1_n_n (some .fp32) x y (constant S1024x400 .f32 0x00000000#32) (ix2 p k)
      = ∑ l : Fin 784, x (ix2 p l) * y (ix2 l k) := by
  simp only [matmul]
  rw [Ideal.matmul_constant_zero_apply, ← Equiv.sum_comp (ValueIdx.contrEquiv1 dot_S1024x784_S784x400_S1024x400_1_0_0_1_n_n 784 rfl rfl).symm]
  refine Finset.sum_congr rfl fun l _ => ?_
  have hl := ValueIdx.contrEquiv1_symm_val dot_S1024x784_S784x400_S1024x400_1_0_0_1_n_n 784 rfl rfl l
  have el : dot_S1024x784_S784x400_S1024x400_1_0_0_1_n_n.lhsIdx (ix2 p k) ((ValueIdx.contrEquiv1 dot_S1024x784_S784x400_S1024x400_1_0_0_1_n_n 784 rfl rfl).symm l) = ix2 p l := funext fun a => Fin.ext (by
    match a with
    | ⟨0, _⟩ => exact mm1_lhs0 _ _
    | ⟨1, _⟩ => exact (dot_S1024x784_S784x400_S1024x400_1_0_0_1_n_n.lhsIdx_val_of_single rfl _ _).trans hl)
  have er : dot_S1024x784_S784x400_S1024x400_1_0_0_1_n_n.rhsIdx (ix2 p k) ((ValueIdx.contrEquiv1 dot_S1024x784_S784x400_S1024x400_1_0_0_1_n_n 784 rfl rfl).symm l) = ix2 l k := funext fun a => Fin.ext (by
    match a with
    | ⟨0, _⟩ => exact (dot_S1024x784_S784x400_S1024x400_1_0_0_1_n_n.rhsIdx_val_of_single rfl _ _).trans hl
    | ⟨1, _⟩ => exact mm1_rhs1 _ _)
  rw [el, er]

theorem mm2_lhs0 (j : S1024x200.Idx) (u : dot_S1024x400_S400x200_S1024x200_1_0_0_1_n_n.contr.Idx) : (dot_S1024x400_S400x200_S1024x200_1_0_0_1_n_n.lhsIdx j u 0).val = (j 0).val := by
  unfold DotDims.lhsIdx
  rw [dif_neg (show ¬(0 : Fin S1024x400.rank) ∈ dot_S1024x400_S400x200_S1024x200_1_0_0_1_n_n.lhsBatch by decide), dif_pos (show (0 : Fin S1024x400.rank) ∈ dot_S1024x400_S400x200_S1024x200_1_0_0_1_n_n.lhsNonContracting by decide)]
  rfl

theorem mm2_rhs1 (j : S1024x200.Idx) (u : dot_S1024x400_S400x200_S1024x200_1_0_0_1_n_n.contr.Idx) : (dot_S1024x400_S400x200_S1024x200_1_0_0_1_n_n.rhsIdx j u 1).val = (j 1).val := by
  unfold DotDims.rhsIdx
  rw [dif_neg (show ¬(1 : Fin S400x200.rank) ∈ dot_S1024x400_S400x200_S1024x200_1_0_0_1_n_n.rhsBatch by decide), dif_pos (show (1 : Fin S400x200.rank) ∈ dot_S1024x400_S400x200_S1024x200_1_0_0_1_n_n.rhsNonContracting by decide)]
  rfl

/-- The second product at entry (p, j): the sum over the 400 first-layer units. -/
theorem mm2_apply (x : FVec Ideal S1024x400 .bf16) (y : FVec Ideal S400x200 .bf16) (p : Fin 1024) (k : Fin 200) :
    matmul dot_S1024x400_S400x200_S1024x200_1_0_0_1_n_n none x y (constant S1024x200 .f32 0x00000000#32) (ix2 p k)
      = ∑ l : Fin 400, x (ix2 p l) * y (ix2 l k) := by
  simp only [matmul]
  rw [Ideal.matmul_constant_zero_apply, ← Equiv.sum_comp (ValueIdx.contrEquiv1 dot_S1024x400_S400x200_S1024x200_1_0_0_1_n_n 400 rfl rfl).symm]
  refine Finset.sum_congr rfl fun l _ => ?_
  have hl := ValueIdx.contrEquiv1_symm_val dot_S1024x400_S400x200_S1024x200_1_0_0_1_n_n 400 rfl rfl l
  have el : dot_S1024x400_S400x200_S1024x200_1_0_0_1_n_n.lhsIdx (ix2 p k) ((ValueIdx.contrEquiv1 dot_S1024x400_S400x200_S1024x200_1_0_0_1_n_n 400 rfl rfl).symm l) = ix2 p l := funext fun a => Fin.ext (by
    match a with
    | ⟨0, _⟩ => exact mm2_lhs0 _ _
    | ⟨1, _⟩ => exact (dot_S1024x400_S400x200_S1024x200_1_0_0_1_n_n.lhsIdx_val_of_single rfl _ _).trans hl)
  have er : dot_S1024x400_S400x200_S1024x200_1_0_0_1_n_n.rhsIdx (ix2 p k) ((ValueIdx.contrEquiv1 dot_S1024x400_S400x200_S1024x200_1_0_0_1_n_n 400 rfl rfl).symm l) = ix2 l k := funext fun a => Fin.ext (by
    match a with
    | ⟨0, _⟩ => exact (dot_S1024x400_S400x200_S1024x200_1_0_0_1_n_n.rhsIdx_val_of_single rfl _ _).trans hl
    | ⟨1, _⟩ => exact mm2_rhs1 _ _)
  rw [el, er]

theorem mm3_lhs0 (j : S1024x10.Idx) (u : dot_S1024x200_S200x10_S1024x10_1_0_0_1_n_n.contr.Idx) : (dot_S1024x200_S200x10_S1024x10_1_0_0_1_n_n.lhsIdx j u 0).val = (j 0).val := by
  unfold DotDims.lhsIdx
  rw [dif_neg (show ¬(0 : Fin S1024x200.rank) ∈ dot_S1024x200_S200x10_S1024x10_1_0_0_1_n_n.lhsBatch by decide), dif_pos (show (0 : Fin S1024x200.rank) ∈ dot_S1024x200_S200x10_S1024x10_1_0_0_1_n_n.lhsNonContracting by decide)]
  rfl

theorem mm3_rhs1 (j : S1024x10.Idx) (u : dot_S1024x200_S200x10_S1024x10_1_0_0_1_n_n.contr.Idx) : (dot_S1024x200_S200x10_S1024x10_1_0_0_1_n_n.rhsIdx j u 1).val = (j 1).val := by
  unfold DotDims.rhsIdx
  rw [dif_neg (show ¬(1 : Fin S200x10.rank) ∈ dot_S1024x200_S200x10_S1024x10_1_0_0_1_n_n.rhsBatch by decide), dif_pos (show (1 : Fin S200x10.rank) ∈ dot_S1024x200_S200x10_S1024x10_1_0_0_1_n_n.rhsNonContracting by decide)]
  rfl

/-- The third product at entry (p, q): the sum over the 200 second-layer units. -/
theorem mm3_apply (x : FVec Ideal S1024x200 .bf16) (y : FVec Ideal S200x10 .bf16) (p : Fin 1024) (k : Fin 10) :
    matmul dot_S1024x200_S200x10_S1024x10_1_0_0_1_n_n none x y (constant S1024x10 .f32 0x00000000#32) (ix2 p k)
      = ∑ l : Fin 200, x (ix2 p l) * y (ix2 l k) := by
  simp only [matmul]
  rw [Ideal.matmul_constant_zero_apply, ← Equiv.sum_comp (ValueIdx.contrEquiv1 dot_S1024x200_S200x10_S1024x10_1_0_0_1_n_n 200 rfl rfl).symm]
  refine Finset.sum_congr rfl fun l _ => ?_
  have hl := ValueIdx.contrEquiv1_symm_val dot_S1024x200_S200x10_S1024x10_1_0_0_1_n_n 200 rfl rfl l
  have el : dot_S1024x200_S200x10_S1024x10_1_0_0_1_n_n.lhsIdx (ix2 p k) ((ValueIdx.contrEquiv1 dot_S1024x200_S200x10_S1024x10_1_0_0_1_n_n 200 rfl rfl).symm l) = ix2 p l := funext fun a => Fin.ext (by
    match a with
    | ⟨0, _⟩ => exact mm3_lhs0 _ _
    | ⟨1, _⟩ => exact (dot_S1024x200_S200x10_S1024x10_1_0_0_1_n_n.lhsIdx_val_of_single rfl _ _).trans hl)
  have er : dot_S1024x200_S200x10_S1024x10_1_0_0_1_n_n.rhsIdx (ix2 p k) ((ValueIdx.contrEquiv1 dot_S1024x200_S200x10_S1024x10_1_0_0_1_n_n 200 rfl rfl).symm l) = ix2 l k := funext fun a => Fin.ext (by
    match a with
    | ⟨0, _⟩ => exact (dot_S1024x200_S200x10_S1024x10_1_0_0_1_n_n.rhsIdx_val_of_single rfl _ _).trans hl
    | ⟨1, _⟩ => exact mm3_rhs1 _ _)
  rw [el, er]

/-! ## The body's result -/

/-- The body's result as the chain of its three products with the sign between them. -/
theorem pay_eq (x0 : Vec Ideal S1024x784 .f32) (x1 : Vec Ideal S784x400 .f32) (x2 : Vec Ideal S400x200 .bf16) (x3 : Vec Ideal S200x10 .bf16) :
    k0_pay1 (F := Ideal) x0 x1 x2 x3
      = matmul (φ₁ := .bf16) (φ₂ := .bf16) dot_S1024x200_S200x10_S1024x10_1_0_0_1_n_n none
          (truncf .bf16 (sgnTerm (matmul (φ₁ := .bf16) (φ₂ := .bf16) dot_S1024x400_S400x200_S1024x200_1_0_0_1_n_n none
            (truncf .bf16 (sgnTerm (matmul (φ₁ := .f32) (φ₂ := .f32) dot_S1024x784_S784x400_S1024x400_1_0_0_1_n_n (some .fp32) x0
              (shapeCast S784x400 x1 shapeCasts_S784x400_S784x400 : FVec Ideal S784x400 .f32) (constant S1024x400 .f32 0x00000000#32))) bitsLt_bf16_f32)
            (shapeCast S400x200 x2 shapeCasts_S400x200_S400x200 : FVec Ideal S400x200 .bf16) (constant S1024x200 .f32 0x00000000#32))) bitsLt_bf16_f32)
          (shapeCast S200x10 x3 shapeCasts_S200x10_S200x10 : FVec Ideal S200x10 .bf16) (constant S1024x10 .f32 0x00000000#32) := rfl

/-- The body's result at entry (p, q) is the three-layer sign network of row p of the input block, with the three
    loaded weight blocks as its matrices. -/
theorem pay_apply (x0 : Vec Ideal S1024x784 .f32) (x1 : Vec Ideal S784x400 .f32) (x2 : Vec Ideal S400x200 .bf16) (x3 : Vec Ideal S200x10 .bf16)
    (p : Fin 1024) (q : Fin 10) :
    k0_pay1 (F := Ideal) x0 x1 x2 x3 (ix2 p q)
      = rowNet (fun l => x0 (ix2 p l)) (fun l k => x1 (ix2 l k)) (fun k j => x2 (ix2 k j)) (fun j o => x3 (ix2 j o)) q := by
  rw [pay_eq]
  refine (mm3_apply _ _ p q).trans ?_
  unfold rowNet
  refine Finset.sum_congr rfl fun j _ => ?_
  refine congrArg₂ (· * ·) ?_ (congrFun (shapeCast_self x3 shapeCasts_S200x10_S200x10) (ix2 j q))
  refine (sgnTerm_apply _ (ix2 p j)).trans (congrArg Ideal.sign ?_)
  refine (mm2_apply _ _ p j).trans ?_
  refine Finset.sum_congr rfl fun k _ => ?_
  refine congrArg₂ (· * ·) ?_ (congrFun (shapeCast_self x2 shapeCasts_S400x200_S400x200) (ix2 k j))
  refine (sgnTerm_apply _ (ix2 p k)).trans (congrArg Ideal.sign ?_)
  refine (mm1_apply _ _ p k).trans ?_
  refine Finset.sum_congr rfl fun l _ => ?_
  exact congrArg (x0 (ix2 p l) * ·) (congrFun (shapeCast_self x1 shapeCasts_S784x400_S784x400) (ix2 l k))

end Cert.KernelIdeal.Row

end
-- ==== Proof.HostSide.lean ====
/-
  What the kernel's region finds in its three weight windows.

  Before the region the host takes the sign of each stored weight array (output unit, input unit) and transposes it, so
  that the region reads matrices indexed (input unit, output unit); two of them are also narrowed to a 16-bit float
  format, which changes nothing at the extended reals. Entry (l, k) of the first matrix is therefore the sign of the
  stored weight (k, l), and likewise for the other two.
-/
import proofs.«166958_j71322226917399_2_alg».proof.Proof.Gen.KernelIdeal.Frame
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.HostSide

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The first matrix as the region finds it: the transpose of the signs of the first stored weight array. -/
theorem first_eq (c : Dev nD) : (V m c main_v1 : S784x400.Idx → EReal)
    = transpose S784x400 [1, 0] (Host.sign (F := Ideal) (φ := .f32) (m ((c : Thread nD τ).loc main_arg1))) transposes_S400x784_S784x400_1_0 := by
  dsimp only [Gen.V, Gen.hostOps0]; after_results

/-- The second: the transpose of the (narrowed) signs of the second stored weight array. -/
theorem second_eq (c : Dev nD) : (V m c main_v4 : S400x200.Idx → EReal)
    = transpose S400x200 [1, 0] (truncf .bf16 (Host.sign (F := Ideal) (φ := .f32) (m ((c : Thread nD τ).loc main_arg2))) bitsLt_bf16_f32) transposes_S200x400_S400x200_1_0 := by
  dsimp only [Gen.V, Gen.hostOps0]; after_results

/-- The third: the transpose of the (narrowed) signs of the third stored weight array. -/
theorem third_eq (c : Dev nD) : (V m c main_v7 : S200x10.Idx → EReal)
    = transpose S200x10 [1, 0] (truncf .bf16 (Host.sign (F := Ideal) (φ := .f32) (m ((c : Thread nD τ).loc main_arg3))) bitsLt_bf16_f32) transposes_S10x200_S200x10_1_0 := by
  dsimp only [Gen.V, Gen.hostOps0]; after_results

/-- Entry (l, k) of the first matrix is the sign of the stored weight (k, l). -/
theorem first_apply (c : Dev nD) (l : Fin 784) (k : Fin 400) :
    (V m c main_v1 : S784x400.Idx → EReal) (ix2 l k) = Ideal.sign ((m ((c : Thread nD τ).loc main_arg1) : S400x784.Idx → EReal) (ix2 k l)) :=
  (congrFun (first_eq m c) (ix2 l k)).trans
    (transpose_apply [1, 0] _ transposes_S400x784_S784x400_1_0 (ix2 l k) (ix2 k l)
      (fun b => by match b with | ⟨0, _⟩ => rfl | ⟨1, _⟩ => rfl))

/-- Entry (k, j) of the second matrix is the sign of the stored weight (j, k). -/
theorem second_apply (c : Dev nD) (k : Fin 400) (j : Fin 200) :
    (V m c main_v4 : S400x200.Idx → EReal) (ix2 k j) = Ideal.sign ((m ((c : Thread nD τ).loc main_arg2) : S200x400.Idx → EReal) (ix2 j k)) :=
  (congrFun (second_eq m c) (ix2 k j)).trans
    (transpose_apply [1, 0] _ transposes_S200x400_S400x200_1_0 (ix2 k j) (ix2 j k)
      (fun b => by match b with | ⟨0, _⟩ => rfl | ⟨1, _⟩ => rfl))

/-- Entry (j, o) of the third matrix is the sign of the stored weight (o, j). -/
theorem third_apply (c : Dev nD) (j : Fin 200) (o : Fin 10) :
    (V m c main_v7 : S200x10.Idx → EReal) (ix2 j o) = Ideal.sign ((m ((c : Thread nD τ).loc main_arg3) : S10x200.Idx → EReal) (ix2 o j)) :=
  (congrFun (third_eq m c) (ix2 j o)).trans
    (transpose_apply [1, 0] _ transposes_S10x200_S200x10_1_0 (ix2 j o) (ix2 o j)
      (fun b => by match b with | ⟨0, _⟩ => rfl | ⟨1, _⟩ => rfl))

end Cert.KernelIdeal.HostSide

end
-- ==== Proof.Blocks.lean ====
/-
  From the 64 blocks to the whole output array.

  The grid has 64 points; point t reads rows 1024 t ... 1024 t + 1023 of the input array and the three weight matrices
  whole, and writes rows 1024 t ... 1024 t + 1023 of the output array. What it writes at (p, q) is the sign network of
  row p of its input block, that is of row 1024 t + p of the input array, with the weight matrices the region finds.
  The 64 row blocks cover the output array (row r lies in block r / 1024), so after the run the output array is the
  sign network of the input array, and, reading the matrices back to the stored weights, of the stored weights.
-/
import proofs.«166958_j71322226917399_2_alg».proof.Proof.Gen.KernelIdeal.Value
import proofs.«166958_j71322226917399_2_alg».proof.Proof.KernelRow
import proofs.«166958_j71322226917399_2_alg».proof.Proof.HostSide
import proofs.«166958_j71322226917399_2_alg».proof.Proof.SignNet
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)
open Cert.SignNet

variable (m : (ℓ : Loc nD τ sig) → Buf (Elt Ideal) ℓ) (ρ : Dev nD → PrngReg)

theorem hz : (![0, 0] : Fin 2 → Nat) = fun _ => 0 := funext fun a => by fin_cases a <;> rfl

/-- The block index of each window at each of the 64 points: the input and the output move down the rows with the
    point; the three weight windows stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The windows' blocks read at an entry -/

/-- Row p of the input block at point t is row 1024 t + p of the input array. -/
theorem input_block (c : Dev nD) (t : Fin cfg0.N) (p : Fin 1024) (l : Fin 784) (b : Fin 65536) (hb : b.val = t.val * 1024 + p.val) :
    (iblk m c 0 t : Vec Ideal S1024x784 .f32) (ix2 p l) = (V m c main_arg0 : S65536x784.Idx → EReal) (ix2 b l) := by
  obtain ⟨e0, e1, -⟩ := idx_facts t
  unfold iblk
  rw [View.read_apply]
  show (V m c main_arg0 : S65536x784.Idx → EReal) _ = (V m c main_arg0 : S65536x784.Idx → EReal) _
  refine congrArg (V m c main_arg0 : S65536x784.Idx → EReal) (funext fun a => Fin.ext ?_)
  match a with
  | ⟨0, _⟩ => show win0_0.index t (0 : Fin 2) * 1024 + 1 * p.val = b.val; rw [e0, hb]; omega
  | ⟨1, _⟩ => show win0_0.index t (1 : Fin 2) * 784 + 1 * l.val = l.val; rw [e1]; omega

/-- The first weight window's block is the whole matrix. -/
theorem first_block (c : Dev nD) (t : Fin cfg0.N) (l : Fin 784) (k : Fin 400) :
    (iblk m c 1 t : Vec Ideal S784x400 .f32) (ix2 l k) = (V m c main_v1 : S784x400.Idx → EReal) (ix2 l k) := by
  obtain ⟨-, -, e0, e1, -⟩ := idx_facts t
  unfold iblk
  rw [View.read_apply]
  show (V m c main_v1 : S784x400.Idx → EReal) _ = (V m c main_v1 : S784x400.Idx → EReal) _
  refine congrArg (V m c main_v1 : S784x400.Idx → EReal) (funext fun a => Fin.ext ?_)
  match a with
  | ⟨0, _⟩ => show win0_1.index t (0 : Fin 2) * 784 + 1 * l.val = l.val; rw [e0]; omega
  | ⟨1, _⟩ => show win0_1.index t (1 : Fin 2) * 400 + 1 * k.val = k.val; rw [e1]; omega

/-- The second weight window's block is the whole matrix. -/
theorem second_block (c : Dev nD) (t : Fin cfg0.N) (k : Fin 400) (j : Fin 200) :
    (iblk m c 2 t : Vec Ideal S400x200 .bf16) (ix2 k j) = (V m c main_v4 : S400x200.Idx → EReal) (ix2 k j) := by
  obtain ⟨-, -, -, -, e0, e1, -⟩ := idx_facts t
  unfold iblk
  rw [View.read_apply]
  show (V m c main_v4 : S400x200.Idx → EReal) _ = (V m c main_v4 : S400x200.Idx → EReal) _
  refine congrArg (V m c main_v4 : S400x200.Idx → EReal) (funext fun a => Fin.ext ?_)
  match a with
  | ⟨0, _⟩ => show win0_2.index t (0 : Fin 2) * 400 + 1 * k.val = k.val; rw [e0]; omega
  | ⟨1, _⟩ => show win0_2.index t (1 : Fin 2) * 200 + 1 * j.val = j.val; rw [e1]; omega

/-- The third weight window's block is the whole matrix. -/
theorem third_block (c : Dev nD) (t : Fin cfg0.N) (j : Fin 200) (o : Fin 10) :
    (iblk m c 3 t : Vec Ideal S200x10 .bf16) (ix2 j o) = (V m c main_v7 : S200x10.Idx → EReal) (ix2 j o) := by
  obtain ⟨-, -, -, -, -, -, e0, e1, -⟩ := idx_facts t
  unfold iblk
  rw [View.read_apply]
  show (V m c main_v7 : S200x10.Idx → EReal) _ = (V m c main_v7 : S200x10.Idx → EReal) _
  refine congrArg (V m c main_v7 : S200x10.Idx → EReal) (funext fun a => Fin.ext ?_)
  match a with
  | ⟨0, _⟩ => show win0_3.index t (0 : Fin 2) * 200 + 1 * j.val = j.val; rw [e0]; omega
  | ⟨1, _⟩ => show win0_3.index t (1 : Fin 2) * 10 + 1 * o.val = o.val; rw [e1]; omega

/-! ## What a point computes -/

/-- The body's result at (p, q) on the blocks of point t is entry (1024 t + p, q) of the sign network of the arrays
    the region finds. -/
theorem block_row (c : Dev nD) (t : Fin cfg0.N) (p : Fin 1024) (q : Fin 10) (b : Fin 65536) (hb : b.val = t.val * 1024 + p.val) :
    k0_pay1 (F := Ideal) (iblk m c 0 t) (iblk m c 1 t) (iblk m c 2 t) (iblk m c 3 t) (ix2 p q)
      = netArrOf (V m c main_arg0) (V m c main_v1) (V m c main_v4) (V m c main_v7) (ix2 b q) := by
  refine (Cert.KernelIdeal.Row.pay_apply (iblk m c 0 t) (iblk m c 1 t) (iblk m c 2 t) (iblk m c 3 t) p q).trans ?_
  refine Eq.trans ?_ (netArrOf_apply (V m c main_arg0) (V m c main_v1) (V m c main_v4) (V m c main_v7) b q).symm
  have hr : (fun l : Fin 784 => (iblk m c 0 t : Vec Ideal S1024x784 .f32) (ix2 p l))
      = fun l : Fin 784 => (V m c main_arg0 : S65536x784.Idx → EReal) (ix2 b l) :=
    funext fun l => input_block m c t p l b hb
  have hA : (fun (l : Fin 784) (k : Fin 400) => (iblk m c 1 t : Vec Ideal S784x400 .f32) (ix2 l k))
      = fun (l : Fin 784) (k : Fin 400) => (V m c main_v1 : S784x400.Idx → EReal) (ix2 l k) :=
    funext fun l => funext fun k => first_block m c t l k
  have hB : (fun (k : Fin 400) (j : Fin 200) => (iblk m c 2 t : Vec Ideal S400x200 .bf16) (ix2 k j))
      = fun (k : Fin 400) (j : Fin 200) => (V m c main_v4 : S400x200.Idx → EReal) (ix2 k j) :=
    funext fun k => funext fun j => second_block m c t k j
  have hC : (fun (j : Fin 200) (o : Fin 10) => (iblk m c 3 t : Vec Ideal S200x10 .bf16) (ix2 j o))
      = fun (j : Fin 200) (o : Fin 10) => (V m c main_v7 : S200x10.Idx → EReal) (ix2 j o) :=
    funext fun j => funext fun o => third_block m c t j o
  exact congrFun (congr (congr (congr (congrArg rowNet hr) hA) hB) hC) q

/-- What point t writes back is block t of the sign network of the arrays the region finds. -/
theorem flushed_eq (c : Dev nD) (t : Fin cfg0.N) :
    (dats m 0 c).flushed 4 t = ((cfg0.win 4).blk t).view.read (Elt Ideal)
      (netArrOf (V m c main_arg0) (V m c main_v1) (V m c main_v4) (V m c main_v7)) := by
  rw [Cert.KernelIdeal.Value.flushed4]
  unfold out0_4
  rw [View.canon_unit_zero hz]
  simp only [View.ld_unit_zero (S := S1024x784) hz, View.ld_unit_zero (S := S784x400) hz,
    View.ld_unit_zero (S := S400x200) hz, View.ld_unit_zero (S := S200x10) hz]
  obtain ⟨-, -, -, -, -, -, -, -, e0, e1⟩ := idx_facts t
  have ht : t.val < 64 := lt_of_lt_of_eq t.isLt N_0
  funext j
  obtain ⟨p, q, rfl⟩ : ∃ (p : Fin 1024) (q : Fin 10), j = ix2 p q :=
    ⟨⟨(j 0).val, (j 0).isLt⟩, ⟨(j 1).val, (j 1).isLt⟩, funext fun a => by match a with | ⟨0, _⟩ => rfl | ⟨1, _⟩ => rfl⟩
  have hp : p.val < 1024 := p.isLt
  have hemb : ((cfg0.win 4).blk t).view.emb (ix2 p q) = ix2 (⟨t.val * 1024 + p.val, by omega⟩ : Fin 65536) q :=
    funext fun a => Fin.ext (by
      match a with
      | ⟨0, _⟩ => show win0_4.index t (0 : Fin 2) * 1024 + 1 * p.val = t.val * 1024 + p.val; rw [e0]; omega
      | ⟨1, _⟩ => show win0_4.index t (1 : Fin 2) * 10 + 1 * q.val = q.val; rw [e1]; omega)
  show k0_pay1 (F := Ideal) (iblk m c 0 t) (iblk m c 1 t) (iblk m c 2 t) (iblk m c 3 t) (ix2 p q)
    = netArrOf (V m c main_arg0) (V m c main_v1) (V m c main_v4) (V m c main_v7) (((cfg0.win 4).blk t).view.emb (ix2 p q))
  rw [hemb]
  exact block_row m c t p q _ rfl

/-! ## The cover, and the array after the run -/

/-- An index of the output array is in point t's block iff each coordinate is in the block's range on its axis. -/
theorem mem_blk (t : Fin cfg0.N) (i : S65536x10.Idx) :
    i ∈ ((cfg0.win 4).blk t).view.set ↔ ∀ a : Fin 2, win0_4.index t a * S1024x10.size a ≤ (i a).val ∧ (i a).val < win0_4.index t a * S1024x10.size a + S1024x10.size a := by
  show i ∈ ((View.whole main_v8).slice (win0_4.rect t)).set ↔ _
  rw [View.set_slice_whole, Rect.mem_set_unit]
  exact Iff.rfl

/-- Row r of the output array lies in the block of point r / 1024. -/
theorem cover (i : S65536x10.Idx) : ∃ t : Fin cfg0.N, (cfg0.win 4).flush t = true ∧ i ∈ ((cfg0.win 4).blk t).view.set := by
  have hi0 : (i 0).val < 65536 := (i 0).isLt
  have hi1 : (i 1).val < 10 := (i 1).isLt
  have hN : cfg0.N = 64 := N_0
  let t : Fin cfg0.N := ⟨(i 0).val / 1024, by rw [hN]; omega⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    rw [e0]; show (i 0).val / 1024 * 1024 ≤ (i 0).val ∧ (i 0).val < (i 0).val / 1024 * 1024 + 1024; omega
  | ⟨1, _⟩ =>
    show win0_4.index t (1 : Fin 2) * 10 ≤ (i 1).val ∧ (i 1).val < win0_4.index t (1 : Fin 2) * 10 + 10
    rw [e1]; omega

/-- After the run the output array is the sign network of the arrays the region finds. -/
theorem final_found (c : Dev nD) :
    (dats m 0 c).arrAt 4 cfg0.N = netArrOf (V m c main_arg0) (V m c main_v1) (V m c main_v4) (V m c main_v7) :=
  (dats m 0 c).arrAt_eq_of_cover 4 (netArrOf (V m c main_arg0) (V m c main_v1) (V m c main_v4) (V m c main_v7))
    (fun t _ => flushed_eq m c t) cover

/-- The arrays the region finds, read back to the arguments: the output array is the sign network of the input array
    and the stored weights. -/
theorem final (c : Dev nD) :
    (dats m 0 c).arrAt 4 cfg0.N
      = netArr (m ((c : Thread nD τ).loc main_arg0)) (m ((c : Thread nD τ).loc main_arg1))
          (m ((c : Thread nD τ).loc main_arg2)) (m ((c : Thread nD τ).loc main_arg3)) := by
  refine (final_found m c).trans ?_
  refine (netArrOf_eq_netArr (V m c main_arg0) (V m c main_v1) (V m c main_v4) (V m c main_v7)
    (m ((c : Thread nD τ).loc main_arg1)) (m ((c : Thread nD τ).loc main_arg2)) (m ((c : Thread nD τ).loc main_arg3))
    (Cert.KernelIdeal.HostSide.first_apply m c) (Cert.KernelIdeal.HostSide.second_apply m c)
    (Cert.KernelIdeal.HostSide.third_apply m c)).trans ?_
  exact congrArg (fun X => netArr X (m ((c : Thread nD τ).loc main_arg1)) (m ((c : Thread nD τ).loc main_arg2))
    (m ((c : Thread nD τ).loc main_arg3))) (V_main_arg0 m c)

/-- The kernel's run, read: the output array at the sign network of the arguments, the arguments unchanged. -/
theorem run : θ_run defs (onTc (τ := τ) (main (F := Ideal))) ⟨m, fun _ => 0, ρ⟩ fun r => ∀ c : Dev nD,
      r.2.mem ((c : Thread nD τ).loc main_v8)
        = netArr (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Blocks

end
-- ==== Proof.RefRow.lean ====
/-
  What the reference computes, read at one output entry.

  The reference forms each layer's product of the previous activations with a weight matrix stored (output unit,
  input unit), so its entry (b, k) is the sum over the contracted index l of activation (b, l) * weight (k, l). Every
  weight passes through the straight-through sign w + (sign w - w), which is sign w because the weights are finite.
  Between layers the product is clipped to [-1, 1] and passed through the straight-through sign, which is the sign of
  the product itself at every extended real. So the result at (b, o) is the three-layer sign network of input row b
  whose matrices are the transposed signs of the stored weights.
-/
import proofs.«166958_j71322226917399_2_alg».proof.Proof.Gen.ReferenceIdeal.Read
import proofs.«166958_j71322226917399_2_alg».proof.Proof.SignNet
import proofs.«166958_j71322226917399_2_alg».proof.Proof.LibSignLaws
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx Cert.SignNet Cert.SignLaws

/-- Every entry of an array is a real number. -/
def Finite {s : Shape} (w : s.Idx → EReal) : Prop := ∀ i, w i ≠ ⊤ ∧ w i ≠ ⊥

/-! ## The weights: the straight-through sign of a finite weight is its sign -/

theorem weight1 (x1 : (⟨S400x784, .f32⟩ : BufTy).Contents (Elt Ideal)) (h1 : Finite x1) (i : S400x784.Idx) :
    val_main_v2 (F := Ideal) x1 i = Ideal.sign (x1 i) :=
  ste_of_finite (x1 i) (h1 i).1 (h1 i).2

theorem weight3 (x2 : (⟨S200x400, .f32⟩ : BufTy).Contents (Elt Ideal)) (h2 : Finite x2) (i : S200x400.Idx) :
    val_main_v10 (F := Ideal) x2 i = Ideal.sign (x2 i) :=
  ste_of_finite (x2 i) (h2 i).1 (h2 i).2

theorem weight4 (x3 : (⟨S10x200, .f32⟩ : BufTy).Contents (Elt Ideal)) (h3 : Finite x3) (i : S10x200.Idx) :
    val_main_v18 (F := Ideal) x3 i = Ideal.sign (x3 i) :=
  ste_of_finite (x3 i) (h3 i).1 (h3 i).2

/-! ## The first layer -/

/-- The first product at (b, k): the sum over the input features of input times the weight's sign. -/
theorem layer1 (x0 : (⟨S65536x784, .f32⟩ : BufTy).Contents (Elt Ideal)) (x1 : (⟨S400x784, .f32⟩ : BufTy).Contents (Elt Ideal))
    (h1 : Finite x1) (b : Fin 65536) (k : Fin 400) :
    val_main_v3 (F := Ideal) x0 x1 (ix2 b k) = ∑ l : Fin 784, x0 (ix2 b l) * Ideal.sign (x1 (ix2 k l)) := by
  rw [val_main_v3_apply]
  refine Finset.sum_congr rfl fun l _ => ?_
  have el : lidx_main_v3 (ix2 b k) l = ix2 b l := funext fun a => Fin.ext (by match a with | ⟨0, _⟩ => rfl | ⟨1, _⟩ => rfl)
  have er : ridx_main_v3 (ix2 b k) l = ix2 k l := funext fun a => Fin.ext (by match a with | ⟨0, _⟩ => rfl | ⟨1, _⟩ => rfl)
  rw [el, er, weight1 x1 h1]

/-- The clipped product, then its straight-through sign: the sign of the product. -/
theorem act1 (x0 : (⟨S65536x784, .f32⟩ : BufTy).Contents (Elt Ideal)) (x1 : (⟨S400x784, .f32⟩ : BufTy).Contents (Elt Ideal))
    (i : S65536x400.Idx) :
    val_main_v7 (F := Ideal) x0 x1 i = Ideal.sign (val_main_v3 (F := Ideal) x0 x1 i) := by
  have e4 : val_main_call0_v4 (F := Ideal) i = 1 := by rw [val_main_call0_v4_apply]; exact word_one
  have e1 : val_main_call0_v1 (F := Ideal) i = -1 := by rw [val_main_call0_v1_apply]; exact word_neg_one
  have ev4 : val_main_v4 (F := Ideal) x0 x1 i = min 1 (max (-1) (val_main_v3 (F := Ideal) x0 x1 i)) := by
    rw [val_main_v4_apply, val_main_call0_v2_apply, e4, e1]; rfl
  show val_main_v4 (F := Ideal) x0 x1 i + (Ideal.sign (val_main_v4 (F := Ideal) x0 x1 i) - val_main_v4 (F := Ideal) x0 x1 i) = _
  rw [ev4]
  exact ste_clip _

/-! ## The second layer -/

theorem layer2 (x0 : (⟨S65536x784, .f32⟩ : BufTy).Contents (Elt Ideal)) (x1 : (⟨S400x784, .f32⟩ : BufTy).Contents (Elt Ideal))
    (x2 : (⟨S200x400, .f32⟩ : BufTy).Contents (Elt Ideal)) (h2 : Finite x2) (b : Fin 65536) (j : Fin 200) :
    val_main_v11 (F := Ideal) x0 x1 x2 (ix2 b j)
      = ∑ k : Fin 400, Ideal.sign (val_main_v3 (F := Ideal) x0 x1 (ix2 b k)) * Ideal.sign (x2 (ix2 j k)) := by
  rw [val_main_v11_apply]
  refine Finset.sum_congr rfl fun k _ => ?_
  have el : lidx_main_v11 (ix2 b j) k = ix2 b k := funext fun a => Fin.ext (by match a with | ⟨0, _⟩ => rfl | ⟨1, _⟩ => rfl)
  have er : ridx_main_v11 (ix2 b j) k = ix2 j k := funext fun a => Fin.ext (by match a with | ⟨0, _⟩ => rfl | ⟨1, _⟩ => rfl)
  rw [el, er, weight3 x2 h2, act1]

theorem act2 (x0 : (⟨S65536x784, .f32⟩ : BufTy).Contents (Elt Ideal)) (x1 : (⟨S400x784, .f32⟩ : BufTy).Contents (Elt Ideal))
    (x2 : (⟨S200x400, .f32⟩ : BufTy).Contents (Elt Ideal)) (i : S65536x200.Idx) :
    val_main_v15 (F := Ideal) x0 x1 x2 i = Ideal.sign (val_main_v11 (F := Ideal) x0 x1 x2 i) := by
  have e4 : val_main_call1_v4 (F := Ideal) i = 1 := by rw [val_main_call1_v4_apply]; exact word_one
  have e1 : val_main_call1_v1 (F := Ideal) i = -1 := by rw [val_main_call1_v1_apply]; exact word_neg_one
  have ev : val_main_v12 (F := Ideal) x0 x1 x2 i = min 1 (max (-1) (val_main_v11 (F := Ideal) x0 x1 x2 i)) := by
    rw [val_main_v12_apply, val_main_call1_v2_apply, e4, e1]; rfl
  show val_main_v12 (F := Ideal) x0 x1 x2 i + (Ideal.sign (val_main_v12 (F := Ideal) x0 x1 x2 i) - val_main_v12 (F := Ideal) x0 x1 x2 i) = _
  rw [ev]
  exact ste_clip _

/-! ## The third layer, and the whole array -/

theorem layer3 (x0 : (⟨S65536x784, .f32⟩ : BufTy).Contents (Elt Ideal)) (x1 : (⟨S400x784, .f32⟩ : BufTy).Contents (Elt Ideal))
    (x2 : (⟨S200x400, .f32⟩ : BufTy).Contents (Elt Ideal)) (x3 : (⟨S10x200, .f32⟩ : BufTy).Contents (Elt Ideal)) (h3 : Finite x3)
    (b : Fin 65536) (o : Fin 10) :
    val_main_v19 (F := Ideal) x0 x1 x2 x3 (ix2 b o)
      = ∑ j : Fin 200, Ideal.sign (val_main_v11 (F := Ideal) x0 x1 x2 (ix2 b j)) * Ideal.sign (x3 (ix2 o j)) := by
  rw [val_main_v19_apply]
  refine Finset.sum_congr rfl fun j _ => ?_
  have el : lidx_main_v19 (ix2 b o) j = ix2 b j := funext fun a => Fin.ext (by match a with | ⟨0, _⟩ => rfl | ⟨1, _⟩ => rfl)
  have er : ridx_main_v19 (ix2 b o) j = ix2 o j := funext fun a => Fin.ext (by match a with | ⟨0, _⟩ => rfl | ⟨1, _⟩ => rfl)
  rw [el, er, weight4 x3 h3, act2]

/-- The reference's result array is the sign network of the input array and the stored weights, when the weights
    are finite. -/
theorem result_eq (x0 : (⟨S65536x784, .f32⟩ : BufTy).Contents (Elt Ideal)) (x1 : (⟨S400x784, .f32⟩ : BufTy).Contents (Elt Ideal))
    (x2 : (⟨S200x400, .f32⟩ : BufTy).Contents (Elt Ideal)) (x3 : (⟨S10x200, .f32⟩ : BufTy).Contents (Elt Ideal))
    (h1 : Finite x1) (h2 : Finite x2) (h3 : Finite x3) :
    val_main_v19 (F := Ideal) x0 x1 x2 x3 = netArr x0 x1 x2 x3 := by
  funext i
  obtain ⟨b, o, rfl⟩ : ∃ (b : Fin 65536) (o : Fin 10), i = ix2 b o := ⟨i 0, i 1, eq_ix2 i⟩
  rw [netArr_apply, layer3 x0 x1 x2 x3 h3]
  unfold rowNet
  refine Finset.sum_congr rfl fun j _ => ?_
  rw [layer2 x0 x1 x2 h2]
  refine congrArg (fun z => Ideal.sign z * _) (Finset.sum_congr rfl fun k _ => ?_)
  rw [layer1 x0 x1 h1]

end Cert.ReferenceIdeal.Row

end
-- ==== Proof.FiniteWeights.lean ====
/-
  What the precondition says of the weights.

  The precondition compares the absolute value of every entry of every argument array with +infinity and asks that all
  the comparisons hold. An extended real whose absolute value is below +infinity is neither infinity: it is a real
  number. The value proof uses this for the three weight arrays only.
-/
import proofs.«166958_j71322226917399_2_alg».proof.Pre_finite_inputs
import proofs.«166958_j71322226917399_2_alg».proof.Proof.Gen.Pre_finite_inputs
import proofs.«166958_j71322226917399_2_alg».proof.Proof.LibSignLaws
import Idealize.ShloMosaic.PureOps.Ideal
import Idealize.ShloMosaic.Lib.ReduceAll
import Idealize.ShloMosaic.Lib.ValueIdx

noncomputable section

namespace Cert.FiniteWeights

open Cert.Pre_finite_inputs Idealize.ShloMosaic Cert.SignLaws

/-- The result of a reduction over every axis has one index. -/
instance : Subsingleton S_.Idx := ⟨fun a b => funext fun d => d.elim0⟩

/-- Under the precondition every entry of each of the three weight arrays is a real number. -/
theorem weights_finite (x0 : FVec Ideal S65536x784 .f32) (x1 : FVec Ideal S400x784 .f32) (x2 : FVec Ideal S200x400 .f32)
    (x3 : FVec Ideal S10x200 .f32) (h : fn (F := Ideal) x0 x1 x2 x3 = fun _ => 1#1) :
    (∀ i, x1 i ≠ ⊤ ∧ x1 i ≠ ⊥) ∧ (∀ i, x2 i ≠ ⊤ ∧ x2 i ≠ ⊥) ∧ (∀ i, x3 i ≠ ⊤ ∧ x3 i ≠ ⊥) := by
  have h0 := congrFun h ValueIdx.ix0
  dsimp only [fn, fn_part1] at h0
  obtain ⟨h13, h17⟩ := IntOp.andi_eq_one.1 h0
  obtain ⟨h8, h12⟩ := IntOp.andi_eq_one.1 h13
  obtain ⟨h3, h7⟩ := IntOp.andi_eq_one.1 h8
  refine ⟨fun i => ?_, fun i => ?_, fun i => ?_⟩
  · exact finite_of_abs_lt (x1 i) (Host.reduce_andi_all _ _ _ _ _ h7 i)
  · exact finite_of_abs_lt (x2 i) (Host.reduce_andi_all _ _ _ _ _ h12 i)
  · exact finite_of_abs_lt (x3 i) (Host.reduce_andi_all _ _ _ _ _ h17 i)

end Cert.FiniteWeights

end
-- ==== Proof.lean ====
/-
  A three-layer dense network with sign activations, computed by one kernel over 64 row blocks, against the same
  network written with clipping and straight-through signs.

  Inputs: x (65536 x 784) and three weight arrays w1 (400 x 784), w3 (200 x 400), w4 (10 x 200), stored (output unit,
  input unit). Both programs compute, for every row b and output o,

      out (b, o) = sum_j sign( sum_k sign( sum_l x (b, l) * sign w1 (k, l) ) * sign w3 (j, k) ) * sign w4 (o, j)

  over the extended reals.

  The kernel's program takes the sign of each weight array and transposes it on the host, then runs the three matrix
  products on blocks of 1024 rows with the sign, spelt through the sign bit, between them; the 64 blocks tile the
  output. The reference replaces every weight by w + (sign w - w), which is sign w for a finite w (this is where the
  precondition is used: at an infinite w the difference is not defined), and every hidden activation h by the same
  expression of min 1 (max (-1) h), which is sign h at every extended real because the clipped value is always a real
  number with the sign of h. Sums and products need no finiteness: they are taken in the same order on both sides.

  The three frame claims are the generated frames (the reference's is its generated run with the result dropped); the
  two idealization entries are the sign-bit rule's statements at the two hidden widths.
-/
import proofs.«166958_j71322226917399_2_alg».proof.Defs
import proofs.«166958_j71322226917399_2_alg».proof.Proof.Gen.Kernel
import proofs.«166958_j71322226917399_2_alg».proof.Proof.Gen.Kernel.Skeleton
import proofs.«166958_j71322226917399_2_alg».proof.Proof.Gen.Kernel.Launch
import proofs.«166958_j71322226917399_2_alg».proof.Proof.Gen.Kernel.Points
import proofs.«166958_j71322226917399_2_alg».proof.Proof.Gen.Kernel.Frame
import proofs.«166958_j71322226917399_2_alg».proof.Proof.Gen.KernelIdeal
import proofs.«166958_j71322226917399_2_alg».proof.Proof.Gen.KernelIdeal.Skeleton
import proofs.«166958_j71322226917399_2_alg».proof.Proof.Gen.KernelIdeal.Launch
import proofs.«166958_j71322226917399_2_alg».proof.Proof.Gen.KernelIdeal.Points
import proofs.«166958_j71322226917399_2_alg».proof.Proof.Gen.KernelIdeal.Frame
import proofs.«166958_j71322226917399_2_alg».proof.Proof.Gen.ReferenceIdeal
import proofs.«166958_j71322226917399_2_alg».proof.Proof.Gen.Pre_finite_inputs
import proofs.«166958_j71322226917399_2_alg».proof.Proof.Gen.KernelIdeal.Value
import proofs.«166958_j71322226917399_2_alg».proof.Proof.Gen.ReferenceIdeal.Run
import proofs.«166958_j71322226917399_2_alg».proof.Proof.Gen.ReferenceIdeal.Read
import proofs.«166958_j71322226917399_2_alg».proof.Proof.LibSignLaws
import proofs.«166958_j71322226917399_2_alg».proof.Proof.SignNet
import proofs.«166958_j71322226917399_2_alg».proof.Proof.Blocks
import proofs.«166958_j71322226917399_2_alg».proof.Proof.RefRow
import proofs.«166958_j71322226917399_2_alg».proof.Proof.FiniteWeights
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization replaced "1.0 carrying the sign bit of h" by "-1 if h < 0 else 1", at the two hidden widths. -/
theorem preserves : Cert.preserves_Kernel_KernelIdeal :=
  ⟨IdealRules.sign_bit.statement _ _, IdealRules.sign_bit.statement _ _⟩

/-- Both idealized programs end with the sign network of the arguments in their result. -/
theorem algebraic : Cert.algebraic_KernelIdeal_ReferenceIdeal := by
  intro m ρ m' ρ' hpre hagree
  refine ⟨_, Cert.KernelIdeal.Blocks.run m ρ, ?_⟩
  refine (θ_run Cert.ReferenceIdeal.defs _ _).mono (fun _ h c => ⟨?_, (h c).2⟩)
    (Cert.ReferenceIdeal.Value.run (F := Ideal) m' ρ')
  obtain ⟨hw1, hw3, hw4⟩ := Cert.FiniteWeights.weights_finite _ _ _ _ (hpre c)
  rw [(h c).1, Cert.ReferenceIdeal.Read.val_main_v19_eq, (hagree c).1, (hagree c).2.1, (hagree c).2.2.1, (hagree c).2.2.2]
  exact Cert.ReferenceIdeal.Row.result_eq _ _ _ _ hw1 hw3 hw4

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
